-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x128 : Shape := ⟨4, ![1, 16, 2048, 128]⟩
abbrev S1x1x2048x2048 : Shape := ⟨4, ![1, 1, 2048, 2048]⟩
abbrev S_ : Shape := ⟨0, ![]⟩

class Facts : Prop where
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_
  h_S_ : 0 < S_.numel

variable [Facts]

def fn {F : FTy → Type} [FloatOps F] (main_arg0 : FVec F S1x16x2048x128 .f32) (main_arg1 : FVec F S1x16x2048x128 .f32) (main_arg2 : IVec S1x1x2048x2048 32) : IVec S_ 1 :=
  let main_v0 : FVec F S1x16x2048x128 .f32 := Host.absf main_arg0
  let main_cst : FVec F S_ .f32 := constant S_ .f32 0x7F800000#32
  let main_v1 : FVec F S1x16x2048x128 .f32 := broadcastInDim S1x16x2048x128 ![] bcast_S_S1x16x2048x128 main_cst
  let main_v2 : IVec S1x16x2048x128 1 := cmpf .olt main_v0 main_v1
  let main_c : IVec S_ 1 := constantI S_ 1 1#1
  let main_v3 : IVec S_ 1 := (fun x v => Host.reduce IntOp.andi x v reducesTo_S1x16x2048x128_S_d0_1_2_3 h_S_) main_v2 main_c
  let main_v4 : FVec F S1x16x2048x128 .f32 := Host.absf main_arg1
  let main_cst_0 : FVec F S_ .f32 := constant S_ .f32 0x7F800000#32
  let main_v5 : FVec F S1x16x2048x128 .f32 := broadcastInDim S1x16x2048x128 ![] bcast_S_S1x16x2048x128 main_cst_0
  let main_v6 : IVec S1x16x2048x128 1 := cmpf .olt main_v4 main_v5
  let main_c_1 : IVec S_ 1 := constantI S_ 1 1#1
  let main_v7 : IVec S_ 1 := (fun x v => Host.reduce IntOp.andi x v reducesTo_S1x16x2048x128_S_d0_1_2_3 h_S_) main_v6 main_c_1
  let main_v8 : IVec S_ 1 := andi main_v3 main_v7
  main_v8
-- ==== Kernel.lean ====
abbrev S1x16x2048x128 : Shape := ⟨4, ![1, 16, 2048, 128]⟩
abbrev S1x1x2048x2048 : Shape := ⟨4, ![1, 1, 2048, 2048]⟩
abbrev S16x2048x128 : Shape := ⟨3, ![16, 2048, 128]⟩
abbrev S2048x2048 : Shape := ⟨2, ![2048, 2048]⟩
abbrev S16x2048x2048 : Shape := ⟨3, ![16, 2048, 2048]⟩
abbrev S1x16x2048x2048 : Shape := ⟨4, ![1, 16, 2048, 2048]⟩
abbrev S1x2048x128 : Shape := ⟨3, ![1, 2048, 128]⟩
abbrev S1x2048x2048 : Shape := ⟨3, ![1, 2048, 2048]⟩
abbrev S2048x128 : Shape := ⟨2, ![2048, 128]⟩

abbrev nBuf : Space → Nat
  | .hbm => 8
  | .vmem => 7
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x1x2048x2048, .i32⟩
  | .hbm, ⟨3, _⟩ => ⟨S16x2048x128, .f32⟩
  | .hbm, ⟨4, _⟩ => ⟨S16x2048x128, .f32⟩
  | .hbm, ⟨5, _⟩ => ⟨S2048x2048, .i32⟩
  | .hbm, ⟨6, _⟩ => ⟨S16x2048x2048, .f32⟩
  | .hbm, ⟨7, _⟩ => ⟨S1x16x2048x2048, .f32⟩
  | .local _ .vmem, ⟨0, _⟩ => ⟨S2048x2048, .i32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x2048, .f32⟩
  | .local _ .vmem, ⟨6, _⟩ => ⟨S1x2048x2048, .f32⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : Index := Scalar.indexCast v5
  let c0_5 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x128_S16x2048x128 : S1x16x2048x128.ShapeCasts S16x2048x128
  shapeCasts_S1x1x2048x2048_S2048x2048 : S1x1x2048x2048.ShapeCasts S2048x2048
  shapeCasts_S16x2048x2048_S1x16x2048x2048 : S16x2048x2048.ShapeCasts S1x16x2048x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  h_S2048x2048 : 0 < S2048x2048.numel
  shapeCasts_S2048x2048_S2048x2048 : S2048x2048.ShapeCasts S2048x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  dot_S2048x128_S2048x128_S2048x2048_1_1_0_0_n_n_wf : DotDims.WF S2048x128 S2048x128 S2048x2048 [1] [1] [0] [0] [] []
  hrank0 : 0 < grid0.rank
  k0_off1_inb : ∀ i : grid0.Coords, ∀ a, (k0_off1 i) a + S2048x2048.size a ≤ S2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .i32 = 32 ∨ (Rect.block (s := S2048x2048) S2048x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S16x2048x2048.size a
  hwx0_3 : ∀ i : grid0.Coords, EltTy.bits .f32 = 32 ∨ (Rect.block (s := S16x2048x2048) S1x2048x2048.size (cc0_transform_3 i) (hinb0_3 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_call0_v2) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x128 : Shape := ⟨4, ![1, 16, 2048, 128]⟩
abbrev S1x1x2048x2048 : Shape := ⟨4, ![1, 1, 2048, 2048]⟩
abbrev S1x16x2048x2048 : Shape := ⟨4, ![1, 16, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x1x2048x2048, .i32⟩
  | .hbm, ⟨3, _⟩ => ⟨S1x16x2048x2048, .f32⟩
  | .hbm, ⟨4, _⟩ => ⟨S_, .i32⟩
  | .hbm, ⟨5, _⟩ => ⟨S1x1x2048x2048, .i32⟩
  | .hbm, ⟨6, _⟩ => ⟨S1x1x2048x2048, .i1⟩
  | .hbm, ⟨7, _⟩ => ⟨S_, .f32⟩
  | .hbm, ⟨8, _⟩ => ⟨S1x16x2048x2048, .i1⟩
  | .hbm, ⟨9, _⟩ => ⟨S1x16x2048x2048, .f32⟩
  | .hbm, ⟨10, _⟩ => ⟨S1x16x2048x2048, .f32⟩
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩

abbrev nD : Nat := 1
abbrev τ : Topo := Topo.v7x

variable {F : FTy → Type} [FloatOps F]

class Facts₀ : Prop where
  bcast_S_S1x1x2048x2048 : S_.BroadcastsInDim S1x1x2048x2048 (![] : Fin 0 → Fin S1x1x2048x2048.rank)
  bcast_S1x1x2048x2048_S1x16x2048x2048_0_1_2_3 : S1x1x2048x2048.BroadcastsInDim S1x16x2048x2048 (![0, 1, 2, 3] : Fin 4 → Fin S1x16x2048x2048.rank)
  bcast_S_S1x16x2048x2048 : S_.BroadcastsInDim S1x16x2048x2048 (![] : Fin 0 → Fin S1x16x2048x2048.rank)
  dot_S1x16x2048x128_S1x16x2048x128_S1x16x2048x2048_3_3_2_2_01_01_wf : DotDims.WF S1x16x2048x128 S1x16x2048x128 S1x16x2048x2048 [3] [3] [2] [2] [0, 1] [0, 1]

variable [Facts₀]

def dot_S1x16x2048x128_S1x16x2048x128_S1x16x2048x2048_3_3_2_2_01_01 : DotDims S1x16x2048x128 S1x16x2048x128 S1x16x2048x2048 where
  lhsContracting := [3]
  rhsContracting := [3]
  lhsNonContracting := [2]
  rhsNonContracting := [2]
  lhsBatch := [0, 1]
  rhsBatch := [0, 1]
  wf := dot_S1x16x2048x128_S1x16x2048x128_S1x16x2048x2048_3_3_2_2_01_01_wf

class Facts : Prop extends Facts₀ where

variable [Facts]
-- ==== Proof.MaskedSpec.lean ====
/-
  The function both programs compute, index by index on the extended reals.

  For every head `h`, query row `q` and key row `k`: the dot product over the feature axis of row `q` of `a`
  with row `k` of `b` where the mask word at `(q, k)` is nonzero, and zero elsewhere.  It is written twice, over the
  arrays as the arguments carry them (rank 4, with a leading unit batch axis; the mask with two unit axes) and
  over the same arrays with the unit axes dropped (rank 3; the mask rank 2), and the two are related by the
  row-major position of an index: dropping or adding unit axes does not move an element.
-/
import Idealize.ShloMosaic.PureOps.Ideal
import Idealize.ShloMosaic.Lib.ValueIdx
import Idealize.ShloMosaic.Lib.Pipeline.Value

noncomputable section

namespace Cert.MaskedSpec

open Idealize.ShloMosaic Idealize.ShloMosaic.ValueIdx

/-- The operands `[1, 16, 2048, 128]`, the mask `[1, 1, 2048, 2048]`, the result `[1, 16, 2048, 2048]`. -/
abbrev SA4 : Shape := ⟨4, ![1, 16, 2048, 128]⟩
abbrev SM4 : Shape := ⟨4, ![1, 1, 2048, 2048]⟩
abbrev SO4 : Shape := ⟨4, ![1, 16, 2048, 2048]⟩
/-- The same without the unit axes. -/
abbrev SA3 : Shape := ⟨3, ![16, 2048, 128]⟩
abbrev SM2 : Shape := ⟨2, ![2048, 2048]⟩
abbrev SO3 : Shape := ⟨3, ![16, 2048, 2048]⟩

/-- One entry: the value `x` where the mask word `w` is not zero, the zero of the floats elsewhere. -/
def keep (w : BitVec 32) (x : Ideal .f32) : Ideal .f32 :=
  Scalar.select (IntOp.cmpi .ne w 0#32) x (Ideal.ofBits .f32 0x00000000#32)

/-- The masked product over the rank-3 arrays: entry `(h, q, k)` is `∑ d, A[h, q, d] · B[h, k, d]` kept where
    `M[q, k] ≠ 0`. -/
def masked3 (A B : SA3.Idx → Ideal .f32) (M : SM2.Idx → BitVec 32) : SO3.Idx → Ideal .f32 :=
  fun j => keep (M (ix2 (j 1) (j 2))) (∑ d : Fin 128, A (ix3 (j 0) (j 1) d) * B (ix3 (j 0) (j 2) d))

/-- The masked product over the rank-4 arrays: entry `(z, h, q, k)` is `∑ d, a[z, h, q, d] · b[z, h, k, d]` kept where
    `mask[0, 0, q, k] ≠ 0`. -/
def masked4 (a b : SA4.Idx → Ideal .f32) (mask : SM4.Idx → BitVec 32) : SO4.Idx → Ideal .f32 :=
  fun i => keep (mask (ix4 (0 : Fin 1) (0 : Fin 1) (i 2) (i 3)))
    (∑ d : Fin 128, a (ix4 (i 0) (i 1) (i 2) d) * b (ix4 (i 0) (i 1) (i 3) d))

/-- Dropping the unit axes of the three arguments, taking the rank-3 masked product and putting the unit batch axis
    back is the rank-4 masked product: each of the four reshapes keeps every element at its row-major position, and
    the positions `((0·16 + h)·2048 + q)·w + k` and `(h·2048 + q)·w + k` are the same number. -/
theorem reshape_masked3 (a b : SA4.Idx → Ideal .f32) (mask : SM4.Idx → BitVec 32)
    (hA : SA4.ShapeCasts SA3) (hM : SM4.ShapeCasts SM2) (hO : SO3.ShapeCasts SO4) :
    shapeCast SO4 (masked3 (shapeCast SA3 a hA) (shapeCast SA3 b hA) (shapeCast SM2 mask hM)) hO = masked4 a b mask := by
  funext i
  obtain ⟨z, h, q, k, rfl⟩ : ∃ (z : Fin 1) (h : Fin 16) (q : Fin 2048) (k : Fin 2048), i = ix4 z h q k :=
    ⟨i 0, i 1, i 2, i 3, eq_ix4 i⟩
  obtain rfl : z = 0 := Subsingleton.elim _ _
  rw [shapeCast_apply _ hO (ix4 (0 : Fin 1) h q k) (ix3 h q k) (by
    rw [Shape.rowMajor_val_three, Shape.rowMajor_val_four]
    show (h.val * 2048 + q.val) * 2048 + k.val = (((0 : Nat) * 16 + h.val) * 2048 + q.val) * 2048 + k.val
    omega)]
  show keep (shapeCast SM2 mask hM (ix2 q k))
      (∑ d : Fin 128, shapeCast SA3 a hA (ix3 h q d) * shapeCast SA3 b hA (ix3 h k d))
    = keep (mask (ix4 (0 : Fin 1) (0 : Fin 1) q k))
      (∑ d : Fin 128, a (ix4 (0 : Fin 1) h q d) * b (ix4 (0 : Fin 1) h k d))
  rw [shapeCast_apply mask hM (ix2 q k) (ix4 (0 : Fin 1) (0 : Fin 1) q k) (by
    rw [Shape.rowMajor_val_four, Shape.rowMajor_val_two]
    show (((0 : Nat) * 1 + 0) * 2048 + q.val) * 2048 + k.val = q.val * 2048 + k.val
    omega)]
  refine congrArg (keep _) (Finset.sum_congr rfl fun d _ => ?_)
  rw [shapeCast_apply a hA (ix3 h q d) (ix4 (0 : Fin 1) h q d) (by
      rw [Shape.rowMajor_val_four, Shape.rowMajor_val_three]
      show (((0 : Nat) * 16 + h.val) * 2048 + q.val) * 128 + d.val = (h.val * 2048 + q.val) * 128 + d.val
      omega),
    shapeCast_apply b hA (ix3 h k d) (ix4 (0 : Fin 1) h k d) (by
      rw [Shape.rowMajor_val_four, Shape.rowMajor_val_three]
      show (((0 : Nat) * 16 + h.val) * 2048 + k.val) * 128 + d.val = (h.val * 2048 + k.val) * 128 + d.val
      omega)]

end Cert.MaskedSpec

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KernelBody.lean ====
/-
  The kernel body at one grid point, as a value.

  At a grid point the body loads a `[1, 2048, 128]` block of `a` and one of `b` (one head each), multiplies the
  first by the transpose of the second into a zero accumulator, loads the whole `[2048, 2048]` mask (from the row
  `2048 · (second grid coordinate)`, and the second grid axis has extent one, so from row zero), and stores the product
  where the mask is nonzero and zero elsewhere as a `[1, 2048, 2048]` block.  So what the body leaves in the output's
  block is its one store's value of the three loaded blocks, and that value at `(z, q, k)` is the dot product of row `q`
  of the first block with row `k` of the second, kept where the mask word at `(q, k)` is nonzero.
-/
import proofs.«154957_g50268297232527_cont_8to1c4_790_23_alg».proof.Proof.Gen.KernelIdeal.Frame
import proofs.«154957_g50268297232527_cont_8to1c4_790_23_alg».proof.Proof.MaskedSpec
import proofs.«154957_g50268297232527_cont_8to1c4_790_23_alg».proof.Proof.LibLayout
import Idealize.ShloMosaic.Lib.Pipeline.Value
import Idealize.ShloMosaic.Lib.Tactic

set_option maxRecDepth 16384

noncomputable section

namespace Cert.KernelIdeal.BodyValue

open Idealize.ShloMosaic Idealize.ShloMosaic.TcCoe Idealize.SL.Sem Idealize.ShloMosaic.Tactic
open Idealize.ShloMosaic.ValueIdx
open Cert.KernelIdeal Cert.KernelIdeal.Gen Cert.MaskedSpec

variable {F : FTy → Type} [FloatOps F]

theorem zero3 : (![0, 0, 0] : Fin 3 → Nat) = fun _ => 0 := funext fun a => by fin_cases a <;> rfl

/-- The mask is loaded from row `2048 · i₁` and column zero; the second grid axis has one point, so `i₁ = 0` and the
    offsets are zero on both axes. -/
theorem mask_off_zero (i : grid0.Coords) : k0_off1 i = fun _ => 0 := by
  have h : (i 1).val = 0 := Nat.lt_one_iff.mp (i 1).isLt
  funext a
  match a with
  | ⟨0, _⟩ =>
    show (Scalar.indexCast (Scalar.muli (BitVec.ofNat 32 (i 1).val) 2048#32)).toNat = 0
    rw [h]
    rfl
  | ⟨1, _⟩ => rfl

/-- What the body leaves in the output's staging buffer: the value of its one store, of the three blocks it
    loaded whole (the one store covers the block, and each load reads a whole buffer at zero offsets). -/
theorem out_eq_payload (c : Dev nD) (i : grid0.Coords) (arg2 : Memref sig .tc .vmem S2048x2048 .i32) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x2048x2048 .f32) (harg5 : arg5.IsWhole)
    (x0 : Vec F S2048x2048 .i32) (x1 : Vec F S1x2048x128 .f32) (x2 : Vec F S1x2048x128 .f32) :
    out0_A_3 c i arg2 harg2 arg3 harg3 arg4 harg4 arg5 harg5 x0 x1 x2 = k0_pay1 x1 x2 x0 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero3]
  simp only [View.readAt_eq_ld, harg2.read_unread, harg3.read_unread, harg4.read_unread,
    View.ld_unit_zero (S := S1x2048x128) zero3, View.ld_unit_zero (S := S2048x2048) (mask_off_zero i)]

/-- The body's operations on three blocks, read at `(z, q, k)`: the shape casts move no element (a `[1, 2048, w]`
    block and the `[2048, w]` matrix have the same row-major positions), the comparison and the select act entry by
    entry, and the matrix product into a zero accumulator is the sum over the contracted axis. -/
theorem ops_apply (x1 x2 : FVec Ideal S1x2048x128 .f32) (x0 : IVec S2048x2048 32)
    (h1 : S1x2048x128.ShapeCasts S2048x128) (h0 : S2048x2048.ShapeCasts S2048x2048)
    (hO : S2048x2048.ShapeCasts S1x2048x2048) (z : Fin 1) (q k : Fin 2048) :
    shapeCast S1x2048x2048
      (select (cmpi .ne (shapeCast S2048x2048 x0 h0) (broadcast S2048x2048 (0#32 : BitVec 32)))
        (matmul dot_S2048x128_S2048x128_S2048x2048_1_1_0_0_n_n none (shapeCast S2048x128 x1 h1) (shapeCast S2048x128 x2 h1)
          (constant (F := Ideal) S2048x2048 .f32 0x00000000#32))
        (broadcast S2048x2048 (Scalar.ofBits (F := Ideal) .f32 0x00000000#32))) hO (ix3 z q k)
      = keep (x0 (ix2 q k)) (∑ d : Fin 128, x1 (ix3 (0 : Fin 1) q d) * x2 (ix3 (0 : Fin 1) k d)) := by
  rw [shapeCast_apply _ hO (ix3 z q k) (ix2 q k) (by
    rw [Shape.rowMajor_val_two, Shape.rowMajor_val_three]
    show q.val * 2048 + k.val = (z.val * 2048 + q.val) * 2048 + k.val
    have := z.isLt
    omega)]
  rw [select_apply]
  show Scalar.select (IntOp.cmpi .ne (shapeCast S2048x2048 x0 h0 (ix2 q k)) 0#32)
      (matmul dot_S2048x128_S2048x128_S2048x2048_1_1_0_0_n_n none (shapeCast S2048x128 x1 h1) (shapeCast S2048x128 x2 h1)
        (constant (F := Ideal) S2048x2048 .f32 0x00000000#32) (ix2 q k))
      (Ideal.ofBits .f32 0x00000000#32) = _
  rw [shapeCast_self,
    LibLayout.matmul_rows_rows_apply dot_S2048x128_S2048x128_S2048x2048_1_1_0_0_n_n rfl rfl rfl rfl
      (fun j r => by
        unfold DotDims.lhsIdx
        rw [dif_neg (show ¬(0 : Fin S2048x128.rank) ∈ dot_S2048x128_S2048x128_S2048x2048_1_1_0_0_n_n.lhsBatch by decide),
          dif_pos (show (0 : Fin S2048x128.rank) ∈ dot_S2048x128_S2048x128_S2048x2048_1_1_0_0_n_n.lhsNonContracting by decide)]
        rfl)
      (fun j r => by
        unfold DotDims.rhsIdx
        rw [dif_neg (show ¬(0 : Fin S2048x128.rank) ∈ dot_S2048x128_S2048x128_S2048x2048_1_1_0_0_n_n.rhsBatch by decide),
          dif_pos (show (0 : Fin S2048x128.rank) ∈ dot_S2048x128_S2048x128_S2048x2048_1_1_0_0_n_n.rhsNonContracting by decide)]
        rfl)]
  unfold keep
  refine congrArg (fun s => Scalar.select (IntOp.cmpi .ne (x0 (ix2 q k)) 0#32) s (Ideal.ofBits .f32 0x00000000#32))
    (Finset.sum_congr rfl fun d _ => ?_)
  rw [shapeCast_apply x1 h1 (ix2 q d) (ix3 (0 : Fin 1) q d) (by
      rw [Shape.rowMajor_val_three, Shape.rowMajor_val_two]
      show ((0 : Nat) * 2048 + q.val) * 128 + d.val = q.val * 128 + d.val
      omega),
    shapeCast_apply x2 h1 (ix2 k d) (ix3 (0 : Fin 1) k d) (by
      rw [Shape.rowMajor_val_three, Shape.rowMajor_val_two]
      show ((0 : Nat) * 2048 + k.val) * 128 + d.val = k.val * 128 + d.val
      omega)]

/-- The store's value at `(z, q, k)`, on the extended reals. -/
theorem payload_apply (x1 x2 : Vec Ideal S1x2048x128 .f32) (x0 : Vec Ideal S2048x2048 .i32) (z : Fin 1) (q k : Fin 2048) :
    k0_pay1 (F := Ideal) x1 x2 x0 (ix3 z q k)
      = keep (x0 (ix2 q k)) (∑ d : Fin 128, x1 (ix3 (0 : Fin 1) q d) * x2 (ix3 (0 : Fin 1) k d)) := by
  unfold k0_pay1
  exact ops_apply x1 x2 x0 _ _ _ z q k

end Cert.KernelIdeal.BodyValue

end
-- ==== Proof.KernelValue.lean ====
/-
  The kernel's result array, as a function of its arguments.

  The call runs the body once per head: at point `t` the windows of `a` and `b` are head `t`'s `[1, 2048, 128]`
  blocks, the mask's window is the whole `[2048, 2048]` mask, and the output's window is head `t`'s
  `[1, 2048, 2048]` block, written back after every point.  The body's value at a point (the masked product of the
  blocks it loaded) is therefore head `t`'s block of ONE function of the three arrays the call is given, the rank-3
  masked product; the sixteen blocks tile the output array, so after the call the output array is that function.
  Around the call the program only drops the unit axes of its three arguments and puts the unit batch axis back
  on the result, which moves no element: the program's result is the rank-4 masked product of its arguments.
-/
import proofs.«154957_g50268297232527_cont_8to1c4_790_23_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.ArrayValue

open Idealize.ShloMosaic Idealize.ShloMosaic.TcCoe Idealize.SL.Sem
open Idealize.ShloMosaic.Pipeline (Dat)
open Idealize.ShloMosaic.ValueIdx
open Cert.KernelIdeal Cert.KernelIdeal.Gen Cert.MaskedSpec Cert.KernelIdeal.BodyValue

variable (m : (ℓ : Loc nD τ sig) → Buf (Elt Ideal) ℓ) (ρ : Dev nD → PrngReg)

/-! ## The blocks at a grid point -/

/-- The windows' block indices at point `t`: the mask's block is always block `(0, 0)`; the blocks of `a`, of `b` and
    of the output are block `(t, 0, 0)`. -/
theorem block_index : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The head point `t` works on. -/
abbrev head (t : Fin cfg0.N) : Fin 16 := ⟨t.val, lt_of_lt_of_eq t.isLt N_0⟩

/-- The mask's block at any point is the mask. -/
theorem blk_mask (c : Dev nD) (t : Fin cfg0.N) (q k : Fin 2048) :
    (iblk m c 0 t : Vec Ideal S2048x2048 .i32) (ix2 q k) = V m c main_call0_v2 (ix2 q k) := by
  obtain ⟨e0, e1, -⟩ := block_index t
  unfold iblk
  rw [View.read_apply]
  show V m c main_call0_v2 _ = V m c main_call0_v2 _
  refine congrArg (V m c main_call0_v2) (funext fun a => Fin.ext ?_)
  match a with
  | ⟨0, _⟩ => show win0_0.index t (0 : Fin 2) * 2048 + 1 * q.val = q.val; rw [e0]; omega
  | ⟨1, _⟩ => show win0_0.index t (1 : Fin 2) * 2048 + 1 * k.val = k.val; rw [e1]; omega

/-- The block of `a` at point `t` is head `t` of `a`. -/
theorem blk_a (c : Dev nD) (t : Fin cfg0.N) (q : Fin 2048) (d : Fin 128) :
    (iblk m c 1 t : Vec Ideal S1x2048x128 .f32) (ix3 (0 : Fin 1) q d) = V m c main_call0_v0 (ix3 (head t) q d) := by
  obtain ⟨-, -, e0, e1, e2, -⟩ := block_index t
  unfold iblk
  rw [View.read_apply]
  show V m c main_call0_v0 _ = V m c main_call0_v0 _
  refine congrArg (V m c main_call0_v0) (funext fun a => Fin.ext ?_)
  match a with
  | ⟨0, _⟩ => show win0_1.index t (0 : Fin 3) * 1 + 1 * 0 = t.val; rw [e0]; omega
  | ⟨1, _⟩ => show win0_1.index t (1 : Fin 3) * 2048 + 1 * q.val = q.val; rw [e1]; omega
  | ⟨2, _⟩ => show win0_1.index t (2 : Fin 3) * 128 + 1 * d.val = d.val; rw [e2]; omega

/-- The block of `b` at point `t` is head `t` of `b`. -/
theorem blk_b (c : Dev nD) (t : Fin cfg0.N) (k : Fin 2048) (d : Fin 128) :
    (iblk m c 2 t : Vec Ideal S1x2048x128 .f32) (ix3 (0 : Fin 1) k d) = V m c main_call0_v1 (ix3 (head t) k d) := by
  obtain ⟨-, -, -, -, -, e0, e1, e2, -⟩ := block_index t
  unfold iblk
  rw [View.read_apply]
  show V m c main_call0_v1 _ = V m c main_call0_v1 _
  refine congrArg (V m c main_call0_v1) (funext fun a => Fin.ext ?_)
  match a with
  | ⟨0, _⟩ => show win0_2.index t (0 : Fin 3) * 1 + 1 * 0 = t.val; rw [e0]; omega
  | ⟨1, _⟩ => show win0_2.index t (1 : Fin 3) * 2048 + 1 * k.val = k.val; rw [e1]; omega
  | ⟨2, _⟩ => show win0_2.index t (2 : Fin 3) * 128 + 1 * d.val = d.val; rw [e2]; omega

/-! ## One point's value is its head's block of the masked product -/

/-- For blocks `x1`, `x2` that are head `h` of arrays `A`, `B` and a block `x0` that is the mask `M`, the body's value at
    `(z, q, k)` is the masked product of `A`, `B`, `M` at `(h, q, k)`. -/
theorem block_value (A B : S16x2048x128.Idx → Ideal .f32) (M : S2048x2048.Idx → BitVec 32)
    (x1 x2 : Vec Ideal S1x2048x128 .f32) (x0 : Vec Ideal S2048x2048 .i32) (h : Fin 16)
    (e0 : ∀ q k : Fin 2048, x0 (ix2 q k) = M (ix2 q k))
    (e1 : ∀ (q : Fin 2048) (d : Fin 128), x1 (ix3 (0 : Fin 1) q d) = A (ix3 h q d))
    (e2 : ∀ (k : Fin 2048) (d : Fin 128), x2 (ix3 (0 : Fin 1) k d) = B (ix3 h k d))
    (z : Fin 1) (q k : Fin 2048) :
    k0_pay1 (F := Ideal) x1 x2 x0 (ix3 z q k) = masked3 A B M (ix3 h q k) := by
  rw [payload_apply, e0]
  show keep (M (ix2 q k)) _ = keep (M (ix2 q k)) (∑ d : Fin 128, A (ix3 h q d) * B (ix3 h k d))
  refine congrArg (keep _) (Finset.sum_congr rfl fun d _ => ?_)
  rw [e1, e2]

/-- The same with the two indices given by their coordinates. -/
theorem block_value_at (A B : S16x2048x128.Idx → Ideal .f32) (M : S2048x2048.Idx → BitVec 32)
    (x1 x2 : Vec Ideal S1x2048x128 .f32) (x0 : Vec Ideal S2048x2048 .i32) (h : Fin 16)
    (e0 : ∀ q k : Fin 2048, x0 (ix2 q k) = M (ix2 q k))
    (e1 : ∀ (q : Fin 2048) (d : Fin 128), x1 (ix3 (0 : Fin 1) q d) = A (ix3 h q d))
    (e2 : ∀ (k : Fin 2048) (d : Fin 128), x2 (ix3 (0 : Fin 1) k d) = B (ix3 h k d))
    (y : S1x2048x2048.Idx) (i : S16x2048x2048.Idx)
    (hi0 : (i 0).val = h.val) (hi1 : (i 1).val = (y 1).val) (hi2 : (i 2).val = (y 2).val) :
    k0_pay1 (F := Ideal) x1 x2 x0 y = masked3 A B M i := by
  obtain ⟨z, q, k, rfl⟩ : ∃ (z : Fin 1) (q k : Fin 2048), y = ix3 z q k := ⟨y 0, y 1, y 2, eq_ix3 y⟩
  obtain rfl : i = ix3 h q k := funext fun a => Fin.ext (by
    match a with
    | ⟨0, _⟩ => exact hi0
    | ⟨1, _⟩ => exact hi1
    | ⟨2, _⟩ => exact hi2)
  exact block_value A B M x1 x2 x0 h e0 e1 e2 z q k

/-- The three arrays the call is given, and the function of them its output array ends holding. -/
abbrev callOut (c : Dev nD) : S16x2048x2048.Idx → Ideal .f32 :=
  masked3 (V m c main_call0_v0) (V m c main_call0_v1) (V m c main_call0_v2)

/-- What point `t` writes back is block `t` of the masked product of the call's arrays. -/
theorem flushed_eq (c : Dev nD) (t : Fin cfg0.N) :
    (dats m 0 c).flushed 3 t = ((cfg0.win 3).blk t).view.read (Elt Ideal) (callOut m c) := by
  show (cfg0.win 3).cut (grid0.coords t) ((dats m 0 c).after 3 t) = _
  rw [after0_3]
  unfold outsAt0
  rw [out_eq_payload]
  obtain ⟨-, -, -, -, -, -, -, -, e0, e1, e2⟩ := block_index t
  funext y
  rw [View.read_apply]
  refine block_value_at (V m c main_call0_v0) (V m c main_call0_v1) (V m c main_call0_v2)
    (iblk m c 1 t) (iblk m c 2 t) (iblk m c 0 t) (head t) (blk_mask m c t) (blk_a m c t) (blk_b m c t)
    ((cfg0.win 3).xinj (grid0.coords t) y) (((cfg0.win 3).blk t).view.emb y) ?_ ?_ ?_
  · show win0_3.index t (0 : Fin 3) * 1 + 1 * (y 0).val = t.val
    have hy : (y 0).val < 1 := (y 0).isLt
    rw [e0]; omega
  · show win0_3.index t (1 : Fin 3) * 2048 + 1 * (y 1).val = (y 1).val
    rw [e1]; omega
  · show win0_3.index t (2 : Fin 3) * 2048 + 1 * (y 2).val = (y 2).val
    rw [e2]; omega

/-! ## The sixteen blocks tile the output array -/

/-- An index of the output array is in point `t`'s block iff each coordinate is in the block's range on its axis. -/
theorem mem_blk (t : Fin cfg0.N) (i : S16x2048x2048.Idx) :
    i ∈ ((cfg0.win 3).blk t).view.set ↔ ∀ a : Fin 3, win0_3.index t a * S1x2048x2048.size a ≤ (i a).val
      ∧ (i a).val < win0_3.index t a * S1x2048x2048.size a + S1x2048x2048.size a := by
  show i ∈ ((View.whole main_call0_v3).slice (win0_3.rect t)).set ↔ _
  rw [View.set_slice_whole, Rect.mem_set_unit]
  exact Iff.rfl

/-- Every index `(h, q, k)` of the output array lies in the block of point `h`. -/
theorem covered (i : S16x2048x2048.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 2048 := (i 2).isLt
  refine ⟨⟨(i 0).val, lt_of_lt_of_eq h0 N_0.symm⟩, flush0_3 _, ?_⟩
  obtain ⟨-, -, -, -, -, -, -, -, e0, e1, e2⟩ := block_index ⟨(i 0).val, lt_of_lt_of_eq h0 N_0.symm⟩
  rw [mem_blk]
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 2048 ≤ (i 1).val ∧ (i 1).val < win0_3.index _ (1 : Fin 3) * 2048 + 2048
    rw [e1]; omega
  | ⟨2, _⟩ =>
    show win0_3.index _ (2 : Fin 3) * 2048 ≤ (i 2).val ∧ (i 2).val < win0_3.index _ (2 : Fin 3) * 2048 + 2048
    rw [e2]; omega

/-- So the call's output array ends holding the masked product of the call's arrays. -/
theorem call_result (c : Dev nD) : (dats m 0 c).arrAt 3 cfg0.N = callOut m c :=
  (dats m 0 c).arrAt_eq_of_cover 3 (callOut m c) (fun t _ => flushed_eq m c t) covered

/-! ## Around the call: the unit axes dropped and put back -/

/-- The call's `a` is the argument with its unit axis dropped; -/
theorem entry_a (c : Dev nD) : (V m c main_call0_v0 : S16x2048x128.Idx → Ideal .f32)
    = shapeCast S16x2048x128 (m ((c : Thread nD τ).loc main_arg0)) shapeCasts_S1x16x2048x128_S16x2048x128 := by
  show StableHlo.after hostOps0 (fun b => m (c, b)) (Proc.devRef .tc main_call0_v0) = _
  after_results <;> rfl

/-- its `b` likewise; -/
theorem entry_b (c : Dev nD) : (V m c main_call0_v1 : S16x2048x128.Idx → Ideal .f32)
    = shapeCast S16x2048x128 (m ((c : Thread nD τ).loc main_arg1)) shapeCasts_S1x16x2048x128_S16x2048x128 := by
  show StableHlo.after hostOps0 (fun b => m (c, b)) (Proc.devRef .tc main_call0_v1) = _
  after_results <;> rfl

/-- and its mask the argument with its two unit axes dropped. -/
theorem entry_mask (c : Dev nD) : (V m c main_call0_v2 : S2048x2048.Idx → BitVec 32)
    = shapeCast S2048x2048 (m ((c : Thread nD τ).loc main_arg2)) shapeCasts_S1x1x2048x2048_S2048x2048 := by
  show StableHlo.after hostOps0 (fun b => m (c, b)) (Proc.devRef .tc main_call0_v2) = _
  after_results <;> rfl

/-- The program's result: the call's output array with the unit batch axis put back, which is the rank-4 masked
    product of the three arguments. -/
theorem tail_result (c : Dev nD) :
    Pipeline.afterTail₀ cfgs (dats m) 0 (V0 m) [hostOps1] c main_v0
      = masked4 (m ((c : Thread nD τ).loc main_arg0)) (m ((c : Thread nD τ).loc main_arg1)) (m ((c : Thread nD τ).loc main_arg2)) := by
  unfold Pipeline.afterTail₀
  show StableHlo.after hostOps1 _ (Proc.devRef .tc main_v0) = _
  after_results
  rw [show Pipeline.withArrays (cfgs 0).spec c (V0 m c) (fun w => (dats m 0 c).arrAt w (cfgs 0).N) (Proc.devRef .tc main_call0_v3)
      = callOut m c from (Pipeline.withArrays_arr spec0 launch0.win.arr_inj c _ _ 3).trans (call_result m c)]
  unfold callOut
  rw [entry_a, entry_b, entry_mask]
  exact reshape_masked3 _ _ _ _ _ _

/-! ## The run -/

/-- Every weakly fair execution of the program ends with its result at the masked product of its arguments, and the
    arguments as they were. -/
theorem run : θ_run defs (onTc (τ := τ) (main (F := Ideal))) ⟨m, fun _ => 0, ρ⟩ fun r => ∀ c : Dev nD,
      r.2.mem ((c.tc : Thread nD τ).loc main_v0)
        = masked4 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.RefValue.lean ====
/-
  The reference, entry by entry: its result is the rank-4 masked product of its three arguments.

  The reference takes the batched product of `a` with `b` over the feature axis (batch axes: the unit axis and the
  heads), compares the mask with zero, repeats the comparison over the heads and selects between the product and
  a zero.  At an index `(z, h, q, k)` that is the sum over `d` of `a[z, h, q, d] · b[z, h, k, d]` where
  `mask[0, 0, q, k] ≠ 0` and zero elsewhere.
-/
import proofs.«154957_g50268297232527_cont_8to1c4_790_23_alg».proof.Proof.Gen.ReferenceIdeal.Read
import proofs.«154957_g50268297232527_cont_8to1c4_790_23_alg».proof.Proof.MaskedSpec

noncomputable section

namespace Cert.ReferenceIdeal.RefValue

open Cert.ReferenceIdeal Cert.ReferenceIdeal.Read Idealize.ShloMosaic Idealize.ShloMosaic.ValueIdx Cert.MaskedSpec

/-- The reference's last stage is the masked product: the stages read one after the other at an index, the
    operands' indices being the coordinates `(z, h, q, d)`, `(z, h, k, d)` and `(0, 0, q, k)`. -/
theorem result_eq (x0 x1 : (⟨S1x16x2048x128, .f32⟩ : BufTy).Contents (Elt Ideal))
    (x2 : (⟨S1x1x2048x2048, .i32⟩ : BufTy).Contents (Elt Ideal)) :
    val_main_v3 (F := Ideal) x0 x1 x2 = masked4 x0 x1 x2 := by
  funext i
  have el : ∀ k : Fin 128, lidx_main_v0 i k = ix4 (i 0) (i 1) (i 2) k := fun k => funext fun a => Fin.ext (by
    match a with
    | ⟨0, _⟩ => rfl
    | ⟨1, _⟩ => rfl
    | ⟨2, _⟩ => rfl
    | ⟨3, _⟩ => rfl)
  have er : ∀ k : Fin 128, ridx_main_v0 i k = ix4 (i 0) (i 1) (i 3) k := fun k => funext fun a => Fin.ext (by
    match a with
    | ⟨0, _⟩ => rfl
    | ⟨1, _⟩ => rfl
    | ⟨2, _⟩ => rfl
    | ⟨3, _⟩ => rfl)
  have em : idx_main_call0_v0 i = ix4 (0 : Fin 1) (0 : Fin 1) (i 2) (i 3) := funext fun a => Fin.ext (by
    match a with
    | ⟨0, _⟩ => rfl
    | ⟨1, _⟩ => rfl
    | ⟨2, _⟩ => rfl
    | ⟨3, _⟩ => rfl)
  rw [val_main_v3_apply, val_main_call0_v0_apply, val_main_v2_apply, val_main_v1_apply, val_main_c_apply,
    val_main_v0_apply, val_main_call0_v1_apply, val_main_cst_apply]
  simp only [el, er, em]
  rfl

end Cert.ReferenceIdeal.RefValue

end
-- ==== Proof.lean ====
/-
  A masked batched matrix product on the extended reals.

  Both programs take `a, b : [1, 16, 2048, 128]` and an integer `mask : [1, 1, 2048, 2048]` and return
  `out : [1, 16, 2048, 2048]` with

      out[z, h, q, k] = ∑ d, a[z, h, q, d] · b[z, h, k, d]   where mask[0, 0, q, k] ≠ 0,   and 0 elsewhere.

  The reference computes the batched product of `a` with `b` over the feature axis for every head, compares the
  mask with zero, repeats the comparison over the heads and selects.  The kernel drops the unit axes, runs one grid
  point per head — a `[2048, 128] · [2048, 128]ᵀ` product into a zero accumulator, then the select against the whole
  mask — and puts the unit batch axis back.  The two sums have the same terms in the same order, the two zeros are
  the same word, and a reshape that adds or drops unit axes moves no element, so no law of the extended reals beyond
  the definitions is used and the inputs' finiteness is not needed.
-/
import proofs.«154957_g50268297232527_cont_8to1c4_790_23_alg».proof.Defs
import proofs.«154957_g50268297232527_cont_8to1c4_790_23_alg».proof.Proof.Gen.Kernel
import proofs.«154957_g50268297232527_cont_8to1c4_790_23_alg».proof.Proof.Gen.Kernel.Frame
import proofs.«154957_g50268297232527_cont_8to1c4_790_23_alg».proof.Proof.Gen.KernelIdeal
import proofs.«154957_g50268297232527_cont_8to1c4_790_23_alg».proof.Proof.Gen.KernelIdeal.Frame
import proofs.«154957_g50268297232527_cont_8to1c4_790_23_alg».proof.Proof.Gen.ReferenceIdeal
import proofs.«154957_g50268297232527_cont_8to1c4_790_23_alg».proof.Proof.Gen.Pre_finite_inputs
import proofs.«154957_g50268297232527_cont_8to1c4_790_23_alg».proof.Proof.Gen.ReferenceIdeal.Run
import proofs.«154957_g50268297232527_cont_8to1c4_790_23_alg».proof.Proof.Gen.ReferenceIdeal.Read
import proofs.«154957_g50268297232527_cont_8to1c4_790_23_alg».proof.Proof.KernelValue
import proofs.«154957_g50268297232527_cont_8to1c4_790_23_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- The kernel read on the extended reals is the kernel's own text: nothing was rewritten. -/
theorem preserves : Cert.preserves_Kernel_KernelIdeal := trivial

/-- From memories that agree on the arguments both programs end with the masked product of the arguments: the kernel
    by its sixteen blocks, the reference by its stages read at an index. -/
theorem algebraic : Cert.algebraic_KernelIdeal_ReferenceIdeal := by
  intro m ρ m' ρ' _ hagree
  refine ⟨fun c => Cert.MaskedSpec.masked4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
